-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : IVec S50000 32) (main_arg3 : FVec F S256x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S10000x256 : Shape := ⟨2, ![10000, 256]⟩
abbrev S10000x64 : Shape := ⟨2, ![10000, 64]⟩
abbrev S800000x64 : Shape := ⟨2, ![800000, 64]⟩
abbrev S50000x1 : Shape := ⟨2, ![50000, 1]⟩
abbrev S1x64 : Shape := ⟨2, ![1, 64]⟩
abbrev S10000x1 : Shape := ⟨2, ![10000, 1]⟩
abbrev S512x64 : Shape := ⟨2, ![512, 64]⟩
abbrev S512 : Shape := ⟨1, ![512]⟩
abbrev S512x1 : Shape := ⟨2, ![512, 1]⟩
abbrev S1x1 : Shape := ⟨2, ![1, 1]⟩

abbrev nBuf : Space → Nat
  | .hbm => 109
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S256x64, .bf16⟩
  | .hbm, ⟨46, _⟩ => ⟨S50000x64, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .bf16⟩
  | .hbm, ⟨56, _⟩ => ⟨S800000x64, .f32⟩
  | .hbm, ⟨57, _⟩ => ⟨S800000x1, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x1, .f32⟩
  | .hbm, ⟨65, _⟩ => ⟨S1x64, .f32⟩
  | .hbm, ⟨66, _⟩ => ⟨S64x64, .bf16⟩
  | .hbm, ⟨67, _⟩ => ⟨S50000x64, .bf16⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x64, .bf16⟩
  | .hbm, ⟨77, _⟩ => ⟨S800000x64, .f32⟩
  | .hbm, ⟨78, _⟩ => ⟨S800000x1, .f32⟩
  | .hbm, ⟨79, _⟩ => ⟨S800000x64, .f32⟩
  | .hbm, ⟨80, _⟩ => ⟨S800000x64, .f32⟩
  | .hbm, ⟨81, _⟩ => ⟨S_, .f32⟩
  | .hbm, ⟨82, _⟩ => ⟨S50000x64, .f32⟩
  | .hbm, ⟨83, _⟩ => ⟨S800000x1, .i32⟩
  | .hbm, ⟨84, _⟩ => ⟨S50000x64, .f32⟩
  | .hbm, ⟨85, _⟩ => ⟨S50000x1, .f32⟩
  | .hbm, ⟨86, _⟩ => ⟨S1x64, .f32⟩
  | .hbm, ⟨87, _⟩ => ⟨S50000x64, .f32⟩
  | .hbm, ⟨88, _⟩ => ⟨S_, .f32⟩
  | .hbm, ⟨89, _⟩ => ⟨S512x64, .f32⟩
  | .hbm, ⟨90, _⟩ => ⟨S50000x1, .i32⟩
  | .hbm, ⟨91, _⟩ => ⟨S512x64, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S512, .f32⟩
  | .hbm, ⟨96, _⟩ => ⟨S50000x1, .i32⟩
  | .hbm, ⟨97, _⟩ => ⟨S512, .f32⟩
  | .hbm, ⟨98, _⟩ => ⟨S_, .f32⟩
  | .hbm, ⟨99, _⟩ => ⟨S512, .f32⟩
  | .hbm, ⟨100, _⟩ => ⟨S512, .f32⟩
  | .hbm, ⟨101, _⟩ => ⟨S512x1, .f32⟩
  | .hbm, ⟨102, _⟩ => ⟨S512x64, .f32⟩
  | .hbm, ⟨103, _⟩ => ⟨S512x64, .f32⟩
  | .hbm, ⟨104, _⟩ => ⟨S512x1, .f32⟩
  | .hbm, ⟨105, _⟩ => ⟨S1x1, .f32⟩
  | .hbm, ⟨106, _⟩ => ⟨S512x1, .f32⟩
  | .hbm, ⟨107, _⟩ => ⟨S512x1, .f32⟩
  | .hbm, ⟨108, _⟩ => ⟨S512, .f32⟩
  | .local _ .vmem, ⟨0, _⟩ => ⟨S10000x256, .f32⟩
  | .local _ .vmem, ⟨1, _⟩ => ⟨S10000x256, .f32⟩
  | .local _ .vmem, ⟨2, _⟩ => ⟨S256x64, .bf16⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S10000x64, .bf16⟩
  | .local _ .vmem, ⟨8, _⟩ => ⟨S10000x64, .bf16⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S64x64, .bf16⟩
  | .local _ .vmem, ⟨13, _⟩ => ⟨S10000x64, .bf16⟩
  | .local _ .vmem, ⟨14, _⟩ => ⟨S10000x64, .bf16⟩
  | .local _ .vmem, ⟨15, _⟩ => ⟨S10000x64, .f32⟩
  | .local _ .vmem, ⟨16, _⟩ => ⟨S10000x64, .f32⟩
  | .local _ .vmem, ⟨17, _⟩ => ⟨S10000x64, .bf16⟩
  | .local _ .vmem, ⟨18, _⟩ => ⟨S10000x64, .bf16⟩
  | .local _ .vmem, ⟨19, _⟩ => ⟨S10000x1, .f32⟩
  | .local _ .vmem, ⟨20, _⟩ => ⟨S10000x1, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x256_S256x64_S10000x64_1_0_0_1_n_n_wf : DotDims.WF S10000x256 S256x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .f32 = 32 ∨ (Rect.block (s := S50000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .bf16 = 32 ∨ (Rect.block (s := S50000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .bf16 = 32 ∨ (Rect.block (s := S50000x64) S10000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .bf16 = 32 ∨ (Rect.block (s := S50000x64) S10000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .bf16 = 32 ∨ (Rect.block (s := S50000x64) S10000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S50000x1.size a
  hwx2_2 : ∀ i : grid2.Coords, EltTy.bits .f32 = 32 ∨ (Rect.block (s := S50000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S50000x64.size a
  hwx2_4 : ∀ i : grid2.Coords, EltTy.bits .f32 = 32 ∨ (Rect.block (s := S50000x64) S10000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S800000x1, .f32⟩
  | .hbm, ⟨56, _⟩ => ⟨S800000x64, .f32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S800000x1, .f32⟩
  | .hbm, ⟨83, _⟩ => ⟨S800000x64, .f32⟩
  | .hbm, ⟨84, _⟩ => ⟨S800000x64, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S50000x1, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S_, .f32⟩
  | .hbm, ⟨97, _⟩ => ⟨S50000x64, .f32⟩
  | .hbm, ⟨98, _⟩ => ⟨S50000x64, .f32⟩
  | .hbm, ⟨99, _⟩ => ⟨S_, .f32⟩
  | .hbm, ⟨100, _⟩ => ⟨S512x64, .f32⟩
  | .hbm, ⟨101, _⟩ => ⟨S50000x1, .i32⟩
  | .hbm, ⟨102, _⟩ => ⟨S512x64, .f32⟩
  | .hbm, ⟨103, _⟩ => ⟨S_, .f32⟩
  | .hbm, ⟨104, _⟩ => ⟨S50000, .f32⟩
  | .hbm, ⟨105, _⟩ => ⟨S_, .f32⟩
  | .hbm, ⟨106, _⟩ => ⟨S512, .f32⟩
  | .hbm, ⟨107, _⟩ => ⟨S50000x1, .i32⟩
  | .hbm, ⟨108, _⟩ => ⟨S512, .f32⟩
  | .hbm, ⟨109, _⟩ => ⟨S_, .f32⟩
  | .hbm, ⟨110, _⟩ => ⟨S512, .f32⟩
  | .hbm, ⟨111, _⟩ => ⟨S512, .f32⟩
  | .hbm, ⟨112, _⟩ => ⟨S512x1, .f32⟩
  | .hbm, ⟨113, _⟩ => ⟨S512x64, .f32⟩
  | .hbm, ⟨114, _⟩ => ⟨S512x64, .f32⟩
  | .hbm, ⟨115, _⟩ => ⟨S512x1, .f32⟩
  | .hbm, ⟨116, _⟩ => ⟨S1x1, .f32⟩
  | .hbm, ⟨117, _⟩ => ⟨S512x1, .f32⟩
  | .hbm, ⟨118, _⟩ => ⟨S512x1, .f32⟩
  | .hbm, ⟨119, _⟩ => ⟨S512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x1_S512x1_1_0_0_1_n_n_wf : DotDims.WF S512x64 S64x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KRun.lean ====
/-
  The idealized kernel's run with its result named.  @main is seven segments: four stretches of host
  operations around three pipelined regions.  The buffer contents at the segment boundaries are a fold
  from the launch memory (`Gen.W0` … `Gen.W7`): a host stretch applies its operations, a region replaces
  its arrays by what its write-backs leave.  Every weakly fair execution terminates, nothing faulting,
  with the result buffer at the last boundary's contents `Gen.W7` and the argument arrays as launched.
-/
import proofs.«130069_j73718818669021_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates; the result buffer ends at the last
    boundary's contents and the arguments as launched. -/
theorem run_main : θ_run defs (onTc (τ := τ) (main (F := F))) ⟨m, fun _ => 0, ρ⟩ (fun r => ∀ c : Dev nD,
      r.2.mem ((c.tc : Thread nD τ).loc main_v81) = W7 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v81 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.KRun

end
-- ==== Proof.Spec.lean ====
/-
  The three dense node-wise steps of the two-layer graph convolution, as whole-array functions over the
  extended reals.  Nodes are rows (50000 of them); features are columns.

  * `layer1 x w` is the feature transform `x · w`: entry (r, c) is the sum over the 256 input features k of
    `x (r, k) * w (k, c)`.
  * `combine agg h inv b` is one layer's activation: at node r and feature c,
    `max (agg (r, c) + h (r, c) * inv (r, 0) + b (0, c)) 0` — the neighbours' aggregate, plus the node's own
    transformed features weighted by its inverse degree (a column), plus the bias (a row), clamped below at zero.
  * `layer2 agg h inv b w` is that activation followed by the second feature transform:
    entry (r, c) is the sum over the 64 hidden features k of `combine agg h inv b (r, k) * w (k, c)`.

  A tiling of the rows into blocks, a rounding of an operand to a narrower float format, and the order in
  which a sum's terms are added change none of these functions over the extended reals.
-/
import Idealize.ShloMosaic.PureOps.Ideal
import Idealize.ShloMosaic.Lib.ValueIdx

noncomputable section

namespace Cert.Spec

open Idealize.ShloMosaic Idealize.ShloMosaic.ValueIdx

/-- Arrays of extended reals of a literal rank-2 shape. -/
abbrev Arr (a b : Nat) : Type := (⟨2, ![a, b]⟩ : Shape).Idx → EReal

/-- The zero the activation clamps at: the all-zero word read as a float. -/
abbrev zero : EReal := Ideal.ofBits .f32 0x00000000#32

/-- `x · w` for 50000 nodes, 256 input features, 64 hidden features. -/
def layer1 (x : Arr 50000 256) (w : Arr 256 64) : Arr 50000 64 :=
  fun i => ∑ k : Fin 256, x (ix2 (i 0 : Fin 50000) k) * w (ix2 k (i 1 : Fin 64))

/-- One layer's activation: aggregate plus inverse-degree-weighted self features plus bias, clamped at zero. -/
def combine (agg h : Arr 50000 64) (inv : Arr 50000 1) (b : Arr 1 64) : Arr 50000 64 :=
  fun i => max (agg i + h i * inv (ix2 (i 0 : Fin 50000) (0 : Fin 1)) + b (ix2 (0 : Fin 1) (i 1 : Fin 64))) zero

/-- The activation followed by the second feature transform. -/
def layer2 (agg h : Arr 50000 64) (inv : Arr 50000 1) (b : Arr 1 64) (w : Arr 64 64) : Arr 50000 64 :=
  fun i => ∑ k : Fin 64, combine agg h inv b (ix2 (i 0 : Fin 50000) k) * w (ix2 k (i 1 : Fin 64))

end Cert.Spec

end
-- ==== Proof.Bridge.lean ====
/-
  The reference's three dense steps are the specification's functions.

  The reference computes the first feature transform as one matrix product of the whole arrays, the
  activation as a chain of whole-array elementwise operations over the inverse-degree vector broadcast
  along the features and the bias broadcast along the nodes, and the second transform as a matrix product
  of the activation.  Read at an index each is the sum, or the clamped sum, the specification writes:
  a matrix product's entry (r, c) is the sum over k of the operands at (r, k) and (k, c); a vector
  broadcast to a column and then along the features reads the vector at the row; a vector broadcast to a
  row and then along the nodes reads it at the column; a length-n vector cast to an n-by-1 column or a
  1-by-n row reads the same entry.
-/
import proofs.«130069_j73718818669021_2_alg».proof.Proof.Gen.ReferenceIdeal.Read
import proofs.«130069_j73718818669021_2_alg».proof.Proof.Spec
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.Bridge

open Cert.ReferenceIdeal Cert.ReferenceIdeal.Gen Cert.ReferenceIdeal.Read Idealize.ShloMosaic Idealize.ShloMosaic.ValueIdx

/-- A length-`a` vector cast to an `[a, 1]` column reads, at `(i, u)`, the vector at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The first feature transform: the reference's whole-array product is `layer1`. -/
theorem layer1_eq (x : (⟨S50000x256, .f32⟩ : BufTy).Contents (Elt Ideal)) (w : (⟨S256x64, .f32⟩ : BufTy).Contents (Elt Ideal)) :
    Cert.Spec.layer1 x w = val_main_v28 (F := Ideal) x w := by
  funext i
  rw [val_main_v28_apply]
  show ∑ k : Fin 256, x (ix2 (i 0 : Fin 50000) k) * w (ix2 k (i 1 : Fin 64)) = _
  refine Finset.sum_congr rfl fun k _ => ?_
  have el : (ix2 (i 0 : Fin 50000) k : S50000x256.Idx) = lidx_main_v28 i k :=
    funext fun a => by match a with | ⟨0, _⟩ => rfl | ⟨1, _⟩ => rfl
  have er : (ix2 k (i 1 : Fin 64) : S256x64.Idx) = ridx_main_v28 i k :=
    funext fun a => by match a with | ⟨0, _⟩ => rfl | ⟨1, _⟩ => rfl
  rw [el, er]

/-- The reference's activation as a function of the aggregate, the node's own features, the inverse-degree
    vector and the bias vector: the vectors broadcast to whole arrays, then product, two sums, and the maximum
    with the zero array. -/
def refCombine (agg h : (⟨S50000x64, .f32⟩ : BufTy).Contents (Elt Ideal)) (d : (⟨S50000, .f32⟩ : BufTy).Contents (Elt Ideal))
    (b : (⟨S64, .f32⟩ : BufTy).Contents (Elt Ideal)) : (⟨S50000x64, .f32⟩ : BufTy).Contents (Elt Ideal) :=
  maximumf (addf (addf agg (mulf h (broadcastInDim S50000x64 ![0, 1] bcast_S50000x1_S50000x64_0_1 (broadcastInDim S50000x1 ![0] bcast_S50000_S50000x1_0 d))))
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- Read at `(r, q)`: the clamped sum over the vectors' entries at `r` and at `q`. -/
theorem refCombine_apply (agg h : (⟨S50000x64, .f32⟩ : BufTy).Contents (Elt Ideal)) (d : (⟨S50000, .f32⟩ : BufTy).Contents (Elt Ideal))
    (b : (⟨S64, .f32⟩ : BufTy).Contents (Elt Ideal)) (r : Fin 50000) (q : Fin 64) :
    refCombine agg h d b (ix2 r q) = max (agg (ix2 r q) + h (ix2 r q) * d (ix1 r) + b (ix1 q)) Cert.Spec.zero := by
  unfold refCombine
  rw [maximumf_apply, addf_apply, addf_apply, mulf_apply]
  rw [broadcastInDim_apply _ bcast_S50000x1_S50000x64_0_1 _ (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl]),
    broadcastInDim_apply _ bcast_S50000_S50000x1_0 d (ix2 r (0 : Fin 1)) (ix1 r) (fun a => match a with
      | ⟨0, _⟩ => by show r.val = if (50000 : Nat) = 1 then 0 else r.val; rw [if_neg (by decide)]),
    broadcastInDim_apply _ bcast_S1x64_S50000x64_0_1 _ (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)]),
    broadcastInDim_apply _ bcast_S64_S1x64_1 b (ix2 (0 : Fin 1) q) (ix1 q) (fun a => match a with
      | ⟨0, _⟩ => by show q.val = if (64 : Nat) = 1 then 0 else q.val; rw [if_neg (by decide)]),
    broadcastInDim_apply _ bcast_S_S50000x64 _ (ix2 r q) ix0 (fun a => a.elim0)]
  rfl

/-- The activation: with the inverse degrees as a column and the bias as a row — the vectors cast, not
    broadcast — the specification's `combine` is the reference's chain of whole-array operations. -/
theorem combine_eq (agg h : (⟨S50000x64, .f32⟩ : BufTy).Contents (Elt Ideal)) (d : (⟨S50000, .f32⟩ : BufTy).Contents (Elt Ideal))
    (b : (⟨S64, .f32⟩ : BufTy).Contents (Elt Ideal)) (hd : S50000.ShapeCasts S50000x1) (hb : S64.ShapeCasts S1x64) :
    Cert.Spec.combine agg h (shapeCast S50000x1 d hd) (shapeCast S1x64 b hb) = refCombine agg h d b := by
  funext i
  obtain ⟨r, q, rfl⟩ : ∃ (r : Fin 50000) (q : Fin 64), i = ix2 r q := ⟨i 0, i 1, eq_ix2 i⟩
  rw [refCombine_apply]
  show max (agg (ix2 r q) + h (ix2 r q) * shapeCast S50000x1 d hd (ix2 r (0 : Fin 1)) + shapeCast S1x64 b hb (ix2 (0 : Fin 1) q)) Cert.Spec.zero = _
  rw [shapeCast_col_apply d hd r 0, shapeCast_a_1a_apply b hb 0 q]

/-- A whole-array product of a 50000-by-64 array with a 64-by-64 array, read at an index: the sum over the 64
    contracted features. -/
theorem dot64_apply (y : (⟨S50000x64, .f32⟩ : BufTy).Contents (Elt Ideal)) (w : (⟨S64x64, .f32⟩ : BufTy).Contents (Elt Ideal)) (i : S50000x64.Idx) :
    Host.dotGeneral (F := Ideal) (φ₁ := .f32) (φ₂ := .f32) dot_S50000x64_S64x64_S50000x64_1_0_0_1_n_n none y w i
      = ∑ k : Fin 64, y (ix2 (i 0 : Fin 50000) k) * w (ix2 k (i 1 : Fin 64)) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = ix2 (i 0 : Fin 50000) k := funext fun a => Fin.ext (by
    match a with
    | ⟨0, _⟩ => exact lhs_main_v50_0 _ _
    | ⟨1, _⟩ => exact (lhs_main_v50_1 _ _).trans hk)
  have er : dot_S50000x64_S64x64_S50000x64_1_0_0_1_n_n.rhsIdx i ((ValueIdx.contrEquiv1 dot_S50000x64_S64x64_S50000x64_1_0_0_1_n_n 64 rfl rfl).symm k) = ix2 k (i 1 : Fin 64) := funext fun a => Fin.ext (by
    match a with
    | ⟨0, _⟩ => exact (rhs_main_v50_0 _ _).trans hk
    | ⟨1, _⟩ => exact rhs_main_v50_1 _ _)
  rw [el, er]
  rfl

/-- The second feature transform after the activation is the reference's product of its activation chain. -/
theorem layer2_eq (agg h : (⟨S50000x64, .f32⟩ : BufTy).Contents (Elt Ideal)) (d : (⟨S50000, .f32⟩ : BufTy).Contents (Elt Ideal))
    (b : (⟨S64, .f32⟩ : BufTy).Contents (Elt Ideal)) (w : (⟨S64x64, .f32⟩ : BufTy).Contents (Elt Ideal))
    (hd : S50000.ShapeCasts S50000x1) (hb : S64.ShapeCasts S1x64) :
    Cert.Spec.layer2 agg h (shapeCast S50000x1 d hd) (shapeCast S1x64 b hb) w
      = Host.dotGeneral (F := Ideal) (φ₁ := .f32) (φ₂ := .f32) dot_S50000x64_S64x64_S50000x64_1_0_0_1_n_n none (refCombine agg h d b) w := by
  funext i
  rw [dot64_apply, ← combine_eq agg h d b hd hb]
  rfl

/-- The reference's first activation is its chain at the first layer's aggregate, transform and bias. -/
theorem v49_eq (x0 : (⟨S50000x256, .f32⟩ : BufTy).Contents (Elt Ideal)) (x1 : (⟨S2x800000, .i32⟩ : BufTy).Contents (Elt Ideal))
    (x3 : (⟨S256x64, .f32⟩ : BufTy).Contents (Elt Ideal)) (x4 : (⟨S64, .f32⟩ : BufTy).Contents (Elt Ideal)) :
    val_main_v49 (F := Ideal) x0 x1 x3 x4 = refCombine (val_main_v41 x0 x1 x3) (val_main_v28 x0 x3) (val_main_v27 x1) x4 := rfl

/-- The reference's second transform is the product of that activation with the second weight matrix. -/
theorem v50_eq (x0 : (⟨S50000x256, .f32⟩ : BufTy).Contents (Elt Ideal)) (x1 : (⟨S2x800000, .i32⟩ : BufTy).Contents (Elt Ideal))
    (x3 : (⟨S256x64, .f32⟩ : BufTy).Contents (Elt Ideal)) (x4 : (⟨S64, .f32⟩ : BufTy).Contents (Elt Ideal)) (x5 : (⟨S64x64, .f32⟩ : BufTy).Contents (Elt Ideal)) :
    val_main_v50 (F := Ideal) x0 x1 x3 x4 x5
      = Host.dotGeneral (F := Ideal) (φ₁ := .f32) (φ₂ := .f32) dot_S50000x64_S64x64_S50000x64_1_0_0_1_n_n none (refCombine (val_main_v41 x0 x1 x3) (val_main_v28 x0 x3) (val_main_v27 x1) x4) x5 := rfl

/-- The reference's second activation is its chain at the second layer's aggregate, transform and bias. -/
theorem v71_eq (x0 : (⟨S50000x256, .f32⟩ : BufTy).Contents (Elt Ideal)) (x1 : (⟨S2x800000, .i32⟩ : BufTy).Contents (Elt Ideal))
    (x3 : (⟨S256x64, .f32⟩ : BufTy).Contents (Elt Ideal)) (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v71 (F := Ideal) x0 x1 x3 x4 x5 x6
      = refCombine (val_main_v63 x0 x1 x3 x4 x5) (val_main_v50 x0 x1 x3 x4 x5) (val_main_v27 x1) x6 := rfl

end Cert.Bridge

end
-- ==== Proof.KFold.lean ====
/-
  The contents of the idealized kernel's buffers at the boundaries of @main's seven segments, read back to
  the argument arrays.

  Before the first region the host computes, from the edge list alone, the source and destination indices,
  each node's degree (one plus the number of edges into it), the edge weights (the product of the inverse
  square roots of the two end degrees) and the inverse degrees.  Region 0 is the first feature transform.
  The host then gathers the transformed rows at the edges' sources, weights them, and sums them into the
  destinations: the first aggregate.  Region 1 is the first activation followed by the second feature
  transform; the host aggregates again; region 2 is the second activation.  The tail pools the nodes into
  graphs (a sum per graph divided by the graph's node count, at least one) and applies the linear head.

  Each stretch of host operations is the same list of whole-array operations the reference applies, and each
  region is one of the specification's three functions, so every boundary value is the reference's value at the
  same stage of the computation: the fold is walked once, boundary by boundary.
-/
import proofs.«130069_j73718818669021_2_alg».proof.Proof.Gen.KernelIdeal.Frame
import proofs.«130069_j73718818669021_2_alg».proof.Proof.Gen.ReferenceIdeal.Read
import proofs.«130069_j73718818669021_2_alg».proof.Proof.Spec
import proofs.«130069_j73718818669021_2_alg».proof.Proof.Bridge
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.SL.Sem Idealize.ShloMosaic.StableHlo

/-- Region 0 leaves the first feature transform of its two operand arrays. -/
def Reg0 : Prop := ∀ (V : (c : Dev nD) → (b : Ref sig .tc) → Buf (Elt Ideal) ((c : Thread nD τ).loc b)) (c : Dev nD),
  (dat0 (F := Ideal) V c).arrAt 2 cfg0.N = Cert.Spec.layer1 (V c main_arg0) (V c main_v28)
/-- Region 1 leaves the activation of its first four operand arrays, transformed by the fifth. -/
def Reg1 : Prop := ∀ (V : (c : Dev nD) → (b : Ref sig .tc) → Buf (Elt Ideal) ((c : Thread nD τ).loc b)) (c : Dev nD),
  (dat1 (F := Ideal) V c).arrAt 5 cfg1.N = Cert.Spec.layer2 (V c main_v43) (V c main_v29) (V c main_v44) (V c main_v45) (V c main_v46)
/-- Region 2 leaves the activation of its four operand arrays. -/
def Reg2 : Prop := ∀ (V : (c : Dev nD) → (b : Ref sig .tc) → Buf (Elt Ideal) ((c : Thread nD τ).loc b)) (c : Dev nD),
  (dat2 (F := Ideal) V c).arrAt 4 cfg2.N = Cert.Spec.combine (V c main_v61) (V c main_v47) (V c main_v62) (V c main_v63)

variable (m : (ℓ : Loc nD τ sig) → Buf (Elt Ideal) ℓ) (ρ : Dev nD → PrngReg) (c : Dev nD)

/-! ## After the first host stretch -/

theorem w1_arg0 : W1 m ρ c (Proc.devRef .tc main_arg0) = (m ((c : Thread nD τ).loc main_arg0)) := by
  show StableHlo.after hostOps0 (W0 m ρ c) _ = _
  after_results_simp <;> rfl
theorem w1_arg2 : W1 m ρ c (Proc.devRef .tc main_arg2) = (m ((c : Thread nD τ).loc main_arg2)) := by
  show StableHlo.after hostOps0 (W0 m ρ c) _ = _
  after_results_simp <;> rfl
theorem w1_arg4 : W1 m ρ c (Proc.devRef .tc main_arg4) = (m ((c : Thread nD τ).loc main_arg4)) := by
  show StableHlo.after hostOps0 (W0 m ρ c) _ = _
  after_results_simp <;> rfl
theorem w1_arg5 : W1 m ρ c (Proc.devRef .tc main_arg5) = (m ((c : Thread nD τ).loc main_arg5)) := by
  show StableHlo.after hostOps0 (W0 m ρ c) _ = _
  after_results_simp <;> rfl
theorem w1_arg6 : W1 m ρ c (Proc.devRef .tc main_arg6) = (m ((c : Thread nD τ).loc main_arg6)) := by
  show StableHlo.after hostOps0 (W0 m ρ c) _ = _
  after_results_simp <;> rfl
theorem w1_arg7 : W1 m ρ c (Proc.devRef .tc main_arg7) = (m ((c : Thread nD τ).loc main_arg7)) := by
  show StableHlo.after hostOps0 (W0 m ρ c) _ = _
  after_results_simp <;> rfl
theorem w1_arg8 : W1 m ρ c (Proc.devRef .tc main_arg8) = (m ((c : Thread nD τ).loc main_arg8)) := by
  show StableHlo.after hostOps0 (W0 m ρ c) _ = _
  after_results_simp <;> rfl
theorem w1_v1 : W1 m ρ c (Proc.devRef .tc main_v1) = Cert.ReferenceIdeal.Read.val_main_v1 (F := Ideal) (m ((c : Thread nD τ).loc main_arg1)) := by
  show StableHlo.after hostOps0 (W0 m ρ c) _ = _
  after_results_simp <;> rfl
theorem w1_v3 : W1 m ρ c (Proc.devRef .tc main_v3) = Cert.ReferenceIdeal.Read.val_main_v3 (F := Ideal) (m ((c : Thread nD τ).loc main_arg1)) := by
  show StableHlo.after hostOps0 (W0 m ρ c) _ = _
  after_results_simp <;> rfl
theorem w1_v25 : W1 m ρ c (Proc.devRef .tc main_v25) = Cert.ReferenceIdeal.Read.val_main_v25 (F := Ideal) (m ((c : Thread nD τ).loc main_arg1)) := by
  show StableHlo.after hostOps0 (W0 m ρ c) _ = _
  after_results_simp <;> rfl
theorem w1_v27 : W1 m ρ c (Proc.devRef .tc main_v27) = Cert.ReferenceIdeal.Read.val_main_v27 (F := Ideal) (m ((c : Thread nD τ).loc main_arg1)) := by
  show StableHlo.after hostOps0 (W0 m ρ c) _ = _
  after_results_simp <;> rfl
theorem w1_v28 : W1 m ρ c (Proc.devRef .tc main_v28) = truncf (F := Ideal) (s := S256x64) (φ := .f32) .bf16 (m ((c : Thread nD τ).loc main_arg3)) bitsLt_bf16_f32 := by
  show StableHlo.after hostOps0 (W0 m ρ c) _ = _
  after_results_simp <;> rfl

/-! ## After region 0 -/

theorem w2_v1 : W2 m ρ c (Proc.devRef .tc main_v1) = Cert.ReferenceIdeal.Read.val_main_v1 (F := Ideal) (m ((c : Thread nD τ).loc main_arg1)) :=
  (W2_of_ne m ρ c main_v1 (by decide)).trans (w1_v1 m ρ c)
theorem w2_v3 : W2 m ρ c (Proc.devRef .tc main_v3) = Cert.ReferenceIdeal.Read.val_main_v3 (F := Ideal) (m ((c : Thread nD τ).loc main_arg1)) :=
  (W2_of_ne m ρ c main_v3 (by decide)).trans (w1_v3 m ρ c)
theorem w2_v25 : W2 m ρ c (Proc.devRef .tc main_v25) = Cert.ReferenceIdeal.Read.val_main_v25 (F := Ideal) (m ((c : Thread nD τ).loc main_arg1)) :=
  (W2_of_ne m ρ c main_v25 (by decide)).trans (w1_v25 m ρ c)
theorem w2_v27 : W2 m ρ c (Proc.devRef .tc main_v27) = Cert.ReferenceIdeal.Read.val_main_v27 (F := Ideal) (m ((c : Thread nD τ).loc main_arg1)) :=
  (W2_of_ne m ρ c main_v27 (by decide)).trans (w1_v27 m ρ c)
theorem w2_arg2 : W2 m ρ c (Proc.devRef .tc main_arg2) = (m ((c : Thread nD τ).loc main_arg2)) :=
  (W2_of_ne m ρ c main_arg2 (by decide)).trans (w1_arg2 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
/-- The first feature transform. -/
theorem w2_v29 (h0 : Reg0) : W2 m ρ c (Proc.devRef .tc main_v29) = Cert.ReferenceIdeal.Read.val_main_v28 (F := Ideal) (m ((c : Thread nD τ).loc main_arg0)) (m ((c : Thread nD τ).loc main_arg3)) := by
  refine (W2_arr m ρ c 2).trans ((h0 (V1 m ρ) c).trans ?_)
  show Cert.Spec.layer1 (W1 m ρ c (Proc.devRef .tc main_arg0)) (W1 m ρ c (Proc.devRef .tc main_v28)) = _
  rw [w1_arg0, w1_v28]
  exact Cert.Bridge.layer1_eq (m ((c : Thread nD τ).loc main_arg0)) (m ((c : Thread nD τ).loc main_arg3))

/-! ## After the second host stretch -/

theorem w3_v1  : W3 m ρ c (Proc.devRef .tc main_v1) = Cert.ReferenceIdeal.Read.val_main_v1 (F := Ideal) (m ((c : Thread nD τ).loc main_arg1)) := by
  have e : W3 m ρ c (Proc.devRef .tc main_v1) = W2 m ρ c (Proc.devRef .tc main_v1) := by
    show StableHlo.after hostOps1 (W2 m ρ c) _ = _
    after_results_simp
  exact e.trans (w2_v1 m ρ c)
theorem w3_v3  : W3 m ρ c (Proc.devRef .tc main_v3) = Cert.ReferenceIdeal.Read.val_main_v3 (F := Ideal) (m ((c : Thread nD τ).loc main_arg1)) := by
  have e : W3 m ρ c (Proc.devRef .tc main_v3) = W2 m ρ c (Proc.devRef .tc main_v3) := by
    show StableHlo.after hostOps1 (W2 m ρ c) _ = _
    after_results_simp
  exact e.trans (w2_v3 m ρ c)
theorem w3_v25  : W3 m ρ c (Proc.devRef .tc main_v25) = Cert.ReferenceIdeal.Read.val_main_v25 (F := Ideal) (m ((c : Thread nD τ).loc main_arg1)) := by
  have e : W3 m ρ c (Proc.devRef .tc main_v25) = W2 m ρ c (Proc.devRef .tc main_v25) := by
    show StableHlo.after hostOps1 (W2 m ρ c) _ = _
    after_results_simp
  exact e.trans (w2_v25 m ρ c)
theorem w3_v27  : W3 m ρ c (Proc.devRef .tc main_v27) = Cert.ReferenceIdeal.Read.val_main_v27 (F := Ideal) (m ((c : Thread nD τ).loc main_arg1)) := by
  have e : W3 m ρ c (Proc.devRef .tc main_v27) = W2 m ρ c (Proc.devRef .tc main_v27) := by
    show StableHlo.after hostOps1 (W2 m ρ c) _ = _
    after_results_simp
  exact e.trans (w2_v27 m ρ c)
theorem w3_arg2  : W3 m ρ c (Proc.devRef .tc main_arg2) = (m ((c : Thread nD τ).loc main_arg2)) := by
  have e : W3 m ρ c (Proc.devRef .tc main_arg2) = W2 m ρ c (Proc.devRef .tc main_arg2) := by
    show StableHlo.after hostOps1 (W2 m ρ c) _ = _
    after_results_simp
  exact e.trans (w2_arg2 m ρ c)
theorem w3_arg6  : W3 m ρ c (Proc.devRef .tc main_arg6) = (m ((c : Thread nD τ).loc main_arg6)) := by
  have e : W3 m ρ c (Proc.devRef .tc main_arg6) = W2 m ρ c (Proc.devRef .tc main_arg6) := by
    show StableHlo.after hostOps1 (W2 m ρ c) _ = _
    after_results_simp
  exact e.trans (w2_arg6 m ρ c)
theorem w3_arg7  : W3 m ρ c (Proc.devRef .tc main_arg7) = (m ((c : Thread nD τ).loc main_arg7)) := by
  have e : W3 m ρ c (Proc.devRef .tc main_arg7) = W2 m ρ c (Proc.devRef .tc main_arg7) := by
    show StableHlo.after hostOps1 (W2 m ρ c) _ = _
    after_results_simp
  exact e.trans (w2_arg7 m ρ c)
theorem w3_arg8  : W3 m ρ c (Proc.devRef .tc main_arg8) = (m ((c : Thread nD τ).loc main_arg8)) := by
  have e : W3 m ρ c (Proc.devRef .tc main_arg8) = W2 m ρ c (Proc.devRef .tc main_arg8) := by
    show StableHlo.after hostOps1 (W2 m ρ c) _ = _
    after_results_simp
  exact e.trans (w2_arg8 m ρ c)
theorem w3_v29 (h0 : Reg0) : W3 m ρ c (Proc.devRef .tc main_v29) = Cert.ReferenceIdeal.Read.val_main_v28 (F := Ideal) (m ((c : Thread nD τ).loc main_arg0)) (m ((c : Thread nD τ).loc main_arg3)) := by
  have e : W3 m ρ c (Proc.devRef .tc main_v29) = W2 m ρ c (Proc.devRef .tc main_v29) := by
    show StableHlo.after hostOps1 (W2 m ρ c) _ = _
    after_results_simp
  exact e.trans (w2_v29 m ρ c h0)
/-- The first aggregate: the transformed rows gathered at the sources, weighted, summed into the destinations. -/
theorem w3_v43 (h0 : Reg0) : W3 m ρ c (Proc.devRef .tc main_v43) = Cert.ReferenceIdeal.Read.val_main_v41 (F := Ideal) (m ((c : Thread nD τ).loc main_arg0)) (m ((c : Thread nD τ).loc main_arg1)) (m ((c : Thread nD τ).loc main_arg3)) := by
  show StableHlo.after hostOps1 (W2 m ρ c) _ = _
  after_results_simp
  rw [w2_v29 m ρ c h0, w2_v1, w2_v3, w2_v25]
  rfl
/-- The inverse degrees as a column. -/
theorem w3_v44 : W3 m ρ c (Proc.devRef .tc main_v44) = shapeCast S50000x1 (Cert.ReferenceIdeal.Read.val_main_v27 (F := Ideal) (m ((c : Thread nD τ).loc main_arg1))) shapeCasts_S50000_S50000x1 := by
  show StableHlo.after hostOps1 (W2 m ρ c) _ = _
  after_results_simp
  rw [w2_v27]
  rfl
/-- The first bias as a row. -/
theorem w3_v45 : W3 m ρ c (Proc.devRef .tc main_v45) = shapeCast S1x64 (m ((c : Thread nD τ).loc main_arg4)) shapeCasts_S64_S1x64 := by
  show StableHlo.after hostOps1 (W2 m ρ c) _ = _
  after_results_simp
  rw [w2_arg4]
  rfl
/-- The second weight matrix, its format changed. -/
theorem w3_v46 : W3 m ρ c (Proc.devRef .tc main_v46) = truncf (F := Ideal) (s := S64x64) (φ := .f32) .bf16 (m ((c : Thread nD τ).loc main_arg5)) bitsLt_bf16_f32 := by
  show StableHlo.after hostOps1 (W2 m ρ c) _ = _
  after_results_simp
  rw [w2_arg5]

/-! ## After region 1 -/

theorem w4_v1 : W4 m ρ c (Proc.devRef .tc main_v1) = Cert.ReferenceIdeal.Read.val_main_v1 (F := Ideal) (m ((c : Thread nD τ).loc main_arg1)) :=
  (W4_of_ne m ρ c main_v1 (by decide)).trans (w3_v1 m ρ c)
theorem w4_v3 : W4 m ρ c (Proc.devRef .tc main_v3) = Cert.ReferenceIdeal.Read.val_main_v3 (F := Ideal) (m ((c : Thread nD τ).loc main_arg1)) :=
  (W4_of_ne m ρ c main_v3 (by decide)).trans (w3_v3 m ρ c)
theorem w4_v25 : W4 m ρ c (Proc.devRef .tc main_v25) = Cert.ReferenceIdeal.Read.val_main_v25 (F := Ideal) (m ((c : Thread nD τ).loc main_arg1)) :=
  (W4_of_ne m ρ c main_v25 (by decide)).trans (w3_v25 m ρ c)
theorem w4_v27 : W4 m ρ c (Proc.devRef .tc main_v27) = Cert.ReferenceIdeal.Read.val_main_v27 (F := Ideal) (m ((c : Thread nD τ).loc main_arg1)) :=
  (W4_of_ne m ρ c main_v27 (by decide)).trans (w3_v27 m ρ c)
theorem w4_arg2 : W4 m ρ c (Proc.devRef .tc main_arg2) = (m ((c : Thread nD τ).loc main_arg2)) :=
  (W4_of_ne m ρ c main_arg2 (by decide)).trans (w3_arg2 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
/-- The first activation followed by the second feature transform. -/
theorem w4_v47 (h0 : Reg0) (h1 : Reg1) : W4 m ρ c (Proc.devRef .tc main_v47) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 5).trans ((h1 (V3 m ρ) c).trans ?_)
  show Cert.Spec.layer2 (W3 m ρ c (Proc.devRef .tc main_v43)) (W3 m ρ c (Proc.devRef .tc main_v29)) (W3 m ρ c (Proc.devRef .tc main_v44)) (W3 m ρ c (Proc.devRef .tc main_v45)) (W3 m ρ c (Proc.devRef .tc main_v46)) = _
  rw [w3_v43 m ρ c h0, w3_v29 m ρ c h0, w3_v44, w3_v45, w3_v46, Cert.Bridge.v50_eq]
  exact Cert.Bridge.layer2_eq _ _ _ _ (m ((c : Thread nD τ).loc main_arg5)) _ _

/-! ## After the third host stretch -/

theorem w5_arg2  : W5 m ρ c (Proc.devRef .tc main_arg2) = (m ((c : Thread nD τ).loc main_arg2)) := by
  have e : W5 m ρ c (Proc.devRef .tc main_arg2) = W4 m ρ c (Proc.devRef .tc main_arg2) := by
    show StableHlo.after hostOps2 (W4 m ρ c) _ = _
    after_results_simp
  exact e.trans (w4_arg2 m ρ c)
theorem w5_arg7  : W5 m ρ c (Proc.devRef .tc main_arg7) = (m ((c : Thread nD τ).loc main_arg7)) := by
  have e : W5 m ρ c (Proc.devRef .tc main_arg7) = W4 m ρ c (Proc.devRef .tc main_arg7) := by
    show StableHlo.after hostOps2 (W4 m ρ c) _ = _
    after_results_simp
  exact e.trans (w4_arg7 m ρ c)
theorem w5_arg8  : W5 m ρ c (Proc.devRef .tc main_arg8) = (m ((c : Thread nD τ).loc main_arg8)) := by
  have e : W5 m ρ c (Proc.devRef .tc main_arg8) = W4 m ρ c (Proc.devRef .tc main_arg8) := by
    show StableHlo.after hostOps2 (W4 m ρ c) _ = _
    after_results_simp
  exact e.trans (w4_arg8 m ρ c)
theorem w5_v47 (h0 : Reg0) (h1 : Reg1) : W5 m ρ c (Proc.devRef .tc main_v47) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have e : W5 m ρ c (Proc.devRef .tc main_v47) = W4 m ρ c (Proc.devRef .tc main_v47) := by
    show StableHlo.after hostOps2 (W4 m ρ c) _ = _
    after_results_simp
  exact e.trans (w4_v47 m ρ c h0 h1)
/-- The second aggregate. -/
theorem w5_v61 (h0 : Reg0) (h1 : Reg1) : W5 m ρ c (Proc.devRef .tc main_v61) = Cert.ReferenceIdeal.Read.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W4 m ρ c) _ = _
  after_results_simp
  rw [w4_v47 m ρ c h0 h1, w4_v1, w4_v3, w4_v25]
  rfl
theorem w5_v62 : W5 m ρ c (Proc.devRef .tc main_v62) = shapeCast S50000x1 (Cert.ReferenceIdeal.Read.val_main_v27 (F := Ideal) (m ((c : Thread nD τ).loc main_arg1))) shapeCasts_S50000_S50000x1 := by
  show StableHlo.after hostOps2 (W4 m ρ c) _ = _
  after_results_simp
  rw [w4_v27]
  rfl
theorem w5_v63 : W5 m ρ c (Proc.devRef .tc main_v63) = shapeCast S1x64 (m ((c : Thread nD τ).loc main_arg6)) shapeCasts_S64_S1x64 := by
  show StableHlo.after hostOps2 (W4 m ρ c) _ = _
  after_results_simp
  rw [w4_arg6]
  rfl

/-! ## After region 2 -/

theorem w6_arg2 : W6 m ρ c (Proc.devRef .tc main_arg2) = (m ((c : Thread nD τ).loc main_arg2)) :=
  (W6_of_ne m ρ c main_arg2 (by decide)).trans (w5_arg2 m ρ c)
theorem w6_arg7 : W6 m ρ c (Proc.devRef .tc main_arg7) = (m ((c : Thread nD τ).loc main_arg7)) :=
  (W6_of_ne m ρ c main_arg7 (by decide)).trans (w5_arg7 m ρ c)
theorem w6_arg8 : W6 m ρ c (Proc.devRef .tc main_arg8) = (m ((c : Thread nD τ).loc main_arg8)) :=
  (W6_of_ne m ρ c main_arg8 (by decide)).trans (w5_arg8 m ρ c)
/-- The second activation. -/
theorem w6_v64 (h0 : Reg0) (h1 : Reg1) (h2 : Reg2) : W6 m ρ c (Proc.devRef .tc main_v64) = Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 4).trans ((h2 (V5 m ρ) c).trans ?_)
  show Cert.Spec.combine (W5 m ρ c (Proc.devRef .tc main_v61)) (W5 m ρ c (Proc.devRef .tc main_v47)) (W5 m ρ c (Proc.devRef .tc main_v62)) (W5 m ρ c (Proc.devRef .tc main_v63)) = _
  rw [w5_v61 m ρ c h0 h1, w5_v47 m ρ c h0 h1, w5_v62, w5_v63, Cert.Bridge.v71_eq]
  exact Cert.Bridge.combine_eq _ _ _ _ _ _

/-! ## The result -/

/-- The result buffer at the last boundary is the reference's composed value of the argument arrays. -/
theorem w7_v81 (h0 : Reg0) (h1 : Reg1) (h2 : Reg2) : W7 m ρ c (Proc.devRef .tc main_v81)
    = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W6 m ρ c) _ = _
  after_results_simp
  rw [w6_v64 m ρ c h0 h1 h2, w6_arg2, w6_arg7, w6_arg8]
  rfl

end Cert.KernelIdeal.KFold

end
-- ==== Proof.Region0.lean ====
/-
  Region 0 of the idealized kernel: the first feature transform.  The region walks the 50000 rows of
  the input x in five blocks of 10000 rows; at each block it multiplies the block of x by the whole
  weight matrix w (a sum over the 256 input features) and writes the 10000 x 64 product back to the
  same rows of the output.  Over the extended reals the roundings to a narrower format are identities,
  so each written block is a block of the one whole-array function Cert.Spec.layer1 x w, and the five
  blocks tile the output: the output array ends holding layer1 x w.
-/
import proofs.«130069_j73718818669021_2_alg».proof.Proof.Gen.KernelIdeal.Frame
import proofs.«130069_j73718818669021_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-! ## The block product at an entry -/

/-- The operands' indices at output index i and contraction index κ: (row of i, κ) on the left,
    (κ, column of i) on the right. -/
theorem lhs_row (i : S10000x64.Idx) (κ : dot_S10000x256_S256x64_S10000x64_1_0_0_1_n_n.contr.Idx) :
    (dot_S10000x256_S256x64_S10000x64_1_0_0_1_n_n.lhsIdx i κ 0).val = (i 0).val := by
  unfold DotDims.lhsIdx
  rw [dif_neg (show ¬(0 : Fin S10000x256.rank) ∈ dot_S10000x256_S256x64_S10000x64_1_0_0_1_n_n.lhsBatch by decide), dif_pos (show (0 : Fin S10000x256.rank) ∈ dot_S10000x256_S256x64_S10000x64_1_0_0_1_n_n.lhsNonContracting by decide)]
  rfl
theorem lhs_col (i : S10000x64.Idx) (κ : dot_S10000x256_S256x64_S10000x64_1_0_0_1_n_n.contr.Idx) :
    (dot_S10000x256_S256x64_S10000x64_1_0_0_1_n_n.lhsIdx i κ 1).val = (κ ⟨0, by decide⟩).val :=
  dot_S10000x256_S256x64_S10000x64_1_0_0_1_n_n.lhsIdx_val_of_single rfl i κ
theorem rhs_row (i : S10000x64.Idx) (κ : dot_S10000x256_S256x64_S10000x64_1_0_0_1_n_n.contr.Idx) :
    (dot_S10000x256_S256x64_S10000x64_1_0_0_1_n_n.rhsIdx i κ 0).val = (κ ⟨0, by decide⟩).val :=
  dot_S10000x256_S256x64_S10000x64_1_0_0_1_n_n.rhsIdx_val_of_single rfl i κ
theorem rhs_col (i : S10000x64.Idx) (κ : dot_S10000x256_S256x64_S10000x64_1_0_0_1_n_n.contr.Idx) :
    (dot_S10000x256_S256x64_S10000x64_1_0_0_1_n_n.rhsIdx i κ 1).val = (i 1).val := by
  unfold DotDims.rhsIdx
  rw [dif_neg (show ¬(1 : Fin S256x64.rank) ∈ dot_S10000x256_S256x64_S10000x64_1_0_0_1_n_n.rhsBatch by decide), dif_pos (show (1 : Fin S256x64.rank) ∈ dot_S10000x256_S256x64_S10000x64_1_0_0_1_n_n.rhsNonContracting by decide)]
  rfl

/-- Entry (p, q) of the block's payload: the sum over the 256 input features k of
    x (p, k) * w (k, q); the two roundings and the zero accumulator change nothing. -/
theorem product_apply (x : Vec Ideal S10000x256 .f32) (w : Vec Ideal S256x64 .bf16) (p : Fin 10000) (q : Fin 64) :
    k0_pay1 x w (ix2 p q) = ∑ k : Fin 256, x (ix2 p k) * w (ix2 k q) := by
  unfold k0_pay1
  rw [truncf_apply, shapeCast_self]
  refine (Ideal.matmul_constant_zero_apply (φ₁ := .bf16) (φ₂ := .bf16) dot_S10000x256_S256x64_S10000x64_1_0_0_1_n_n none (truncf .bf16 x bitsLt_bf16_f32) w (ix2 p q)).trans ?_
  rw [← Equiv.sum_comp (contrEquiv1 dot_S10000x256_S256x64_S10000x64_1_0_0_1_n_n 256 rfl rfl).symm]
  refine Finset.sum_congr rfl fun k _ => ?_
  have hk := contrEquiv1_symm_val dot_S10000x256_S256x64_S10000x64_1_0_0_1_n_n 256 rfl rfl k
  have el : dot_S10000x256_S256x64_S10000x64_1_0_0_1_n_n.lhsIdx (ix2 p q) ((contrEquiv1 dot_S10000x256_S256x64_S10000x64_1_0_0_1_n_n 256 rfl rfl).symm k) = ix2 p k := funext fun a => Fin.ext (by
    match a with
    | ⟨0, _⟩ => exact lhs_row _ _
    | ⟨1, _⟩ => exact (lhs_col _ _).trans hk)
  have er : dot_S10000x256_S256x64_S10000x64_1_0_0_1_n_n.rhsIdx (ix2 p q) ((contrEquiv1 dot_S10000x256_S256x64_S10000x64_1_0_0_1_n_n 256 rfl rfl).symm k) = ix2 k q := funext fun a => Fin.ext (by
    match a with
    | ⟨0, _⟩ => exact (rhs_row _ _).trans hk
    | ⟨1, _⟩ => exact rhs_col _ _)
  rw [el, er]
  rfl

/-! ## The index maps -/

/-- The printed index maps, decided over the five points: the block of x moves with the output's rows,
    the weight window and every column block stay at 0, and the output's row block is the point's number. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-! ## One block -/

/-- Entry (p, q) of a block product is entry (r, q) of the whole product, when row p of the block of x is
    row r of the whole x and the weights are the whole w. -/
theorem block_apply (x : Vec Ideal S10000x256 .f32) (w : Vec Ideal S256x64 .bf16)
    (X : Cert.Spec.Arr 50000 256) (W : Cert.Spec.Arr 256 64) (p : Fin 10000) (q : Fin 64) (r : Fin 50000)
    (hx : ∀ k : Fin 256, x (ix2 p k) = X (ix2 r k)) (hw : ∀ k : Fin 256, w (ix2 k q) = W (ix2 k q)) :
    k0_pay1 x w (ix2 p q) = Cert.Spec.layer1 X W (ix2 r q) := by
  rw [product_apply]
  show _ = ∑ k : Fin 256, X (ix2 r k) * W (ix2 k q)
  exact Finset.sum_congr rfl fun k _ => by rw [hx k, hw k]

/-- What point t writes back is block t of the whole product of the arrays as the region finds them. -/
theorem flushed_eq (c : Dev nD) (t : Fin cfg0.N) :
    (dat0 V c).flushed 2 t = ((cfg0.win 2).blk t).view.read (Elt Ideal) (Cert.Spec.layer1 (V c main_arg0) (V c main_v28)) := by
  show (cfg0.win 2).cut (grid0.coords t) ((dat0 V c).after 2 t) = _
  rw [after0_2]
  unfold out0_2
  rw [View.canon_unit_zero origin]
  simp only [View.ld_unit_zero (S := S10000x256) origin, View.ld_unit_zero (S := S256x64) origin]
  obtain ⟨e0, e1, e2, e3, e4, e5⟩ := index_facts t
  have ht : t.val < 5 := lt_of_lt_of_eq t.isLt (N_0 : cfg0.N = 5)
  funext j
  obtain ⟨p, q, rfl⟩ : ∃ (p : Fin 10000) (q : Fin 64), j = ix2 p q := ⟨j 0, j 1, eq_ix2 j⟩
  have hp : p.val < 10000 := p.isLt
  have hemb : ((cfg0.win 2).blk t).view.emb (ix2 p q) = ix2 (⟨t.val * 10000 + p.val, by omega⟩ : Fin 50000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show k0_pay1 (iblk0 V c 0 t) (iblk0 V c 1 t) (ix2 p q) = Cert.Spec.layer1 (V c main_arg0) (V c main_v28) (((cfg0.win 2).blk t).view.emb (ix2 p q))
  rw [hemb]
  refine block_apply _ _ _ _ p q _ (fun k => ?_) (fun k => ?_)
  · show V c main_arg0 (((cfg0.win 0).blk t).view.emb (ix2 p k)) = V c main_arg0 (ix2 (⟨t.val * 10000 + p.val, by omega⟩ : Fin 50000) k)
    congr 1; funext a; apply Fin.ext
    match a with
    | ⟨0, _⟩ => show win0_0.index t (0 : Fin 2) * 10000 + 1 * p.val = t.val * 10000 + p.val; omega
    | ⟨1, _⟩ => show win0_0.index t (1 : Fin 2) * 256 + 1 * k.val = k.val; omega
  · show V c main_v28 (((cfg0.win 1).blk t).view.emb (ix2 k q)) = V c main_v28 (ix2 k q)
    congr 1; funext a; apply Fin.ext
    match a with
    | ⟨0, _⟩ => show win0_1.index t (0 : Fin 2) * 256 + 1 * k.val = k.val; omega
    | ⟨1, _⟩ => show win0_1.index t (1 : Fin 2) * 64 + 1 * q.val = q.val; omega

/-! ## The blocks tile the output -/

/-- An index of the output is in point t's block iff each coordinate is in the block's range on its axis. -/
theorem mem_block (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every index of the output is in the block of the point its row falls in (row / 10000). -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 5 := N_0
  let t : Fin cfg0.N := ⟨(i 0).val / 10000, by rw [hN]; omega⟩
  obtain ⟨e0, e1, e2, e3, e4, e5⟩ := index_facts t
  have e4' : win0_2.index t (0 : Fin 2) = (i 0).val / 10000 := e4
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-! ## The output array -/

/-- After the region the output array holds the whole product of the input array and the weight array as the
    region finds them. -/
theorem final (c : Dev nD) :
    (Gen.dat0 (F := Ideal) V c).arrAt 2 cfg0.N = Cert.Spec.layer1 (V c main_arg0) (V c main_v28) :=
  (dat0 V c).arrAt_eq_of_cover 2 (Cert.Spec.layer1 (V c main_arg0) (V c main_v28)) (fun t _ => flushed_eq V c t) covered

end Cert.KernelIdeal.Region0

end
-- ==== Proof.Region1.lean ====
import proofs.«130069_j73718818669021_2_alg».proof.Proof.Gen.KernelIdeal.Frame
import proofs.«130069_j73718818669021_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The body's payload at an index -/

/-- A column broadcast along the lanes reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the product is read in the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … at the contraction index; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contraction index … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … in the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix product into a zero accumulator, at `(p, q)`: the sum over the 64 hidden features `k` of the left
    operand at `(p, k)` times the right at `(k, q)`. -/
theorem matmul_at (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  refine (Ideal.matmul_constant_zero_apply dot_S10000x64_S64x64_S10000x64_1_0_0_1_n_n none x w (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- THE PAYLOAD AT `(p, q)`: the clamped sum of the aggregate, the node's own features weighted by its inverse degree and
    the bias, in row `p`, multiplied into column `q` of the weights — the roundings and the same-shape casts are
    identities over the extended reals. -/
theorem pay_at (h : Vec Ideal S10000x64 .bf16) (agg : Vec Ideal S10000x64 .f32) (inv : Vec Ideal S10000x1 .f32)
    (b : Vec Ideal S1x64 .f32) (w : Vec Ideal S64x64 .bf16) (p : Fin 10000) (q : Fin 64) :
    k1_pay1 (F := Ideal) h agg inv b w (ix2 p q)
      = ∑ k : Fin 64, max (agg (ix2 p k) + h (ix2 p k) * inv (ix2 p (0 : Fin 1)) + b (ix2 (0 : Fin 1) k)) Cert.Spec.zero * w (ix2 k q) := by
  unfold k1_pay1
  simp only [shapeCast_self]
  rw [truncf_apply, matmul_at]
  refine Finset.sum_congr rfl fun k _ => ?_
  rw [truncf_apply, maximumf_apply, addf_apply, addf_apply, mulf_apply, extf_apply, broadcast_apply,
    broadcastTo_a1_ab_apply, broadcastTo_1b_ab_apply]
  rfl

/-- The second layer's feature transform of the activation at an index, written out: the sum over the hidden features `k`
    of the clamped sum in the index's row at `k` times the weight at `k` and the index's column. -/
theorem layer2_apply (agg h : Cert.Spec.Arr 50000 64) (inv : Cert.Spec.Arr 50000 1) (b : Cert.Spec.Arr 1 64)
    (w : Cert.Spec.Arr 64 64) (i : S50000x64.Idx) :
    Cert.Spec.layer2 agg h inv b w i
      = ∑ k : Fin 64, max (agg (ix2 (i 0 : Fin 50000) k) + h (ix2 (i 0 : Fin 50000) k) * inv (ix2 (i 0 : Fin 50000) (0 : Fin 1))
          + b (ix2 (0 : Fin 1) k)) Cert.Spec.zero * w (ix2 k (i 1 : Fin 64)) := rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The second layer's feature transform of the activation, of the five arrays as the region finds them. -/
abbrev G (c : Dev nD) : Cert.Spec.Arr 50000 64 :=
  Cert.Spec.layer2 (V c main_v43) (V c main_v29) (V c main_v44) (V c main_v45) (V c main_v46)

/-- The index maps, decided over the five grid points: the three row-blocked inputs move with the output's row block and
    sit at column block 0; the bias row and the weights are whole (block (0, 0)); the output's row block is at most 4 and
    its column block 0. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 4 ∧ win1_5.index t (1 : Fin 2) = 0 :=
  (by decide +kernel : ∀ t : Fin grid1.N, _)

/-- Every row block of the output is some point's. -/
theorem idx_onto : ∀ (q0 : Fin 5) (q1 : Fin 1), ∃ t : Fin cfg1.N, win1_5.index t = ![q0.val + 0, q1.val + 0] :=
  (by decide +kernel : ∀ (q0 : Fin 5) (q1 : Fin 1), ∃ t : Fin grid1.N, win1_5.index t = ![q0.val + 0, q1.val + 0])

/-- The aggregate's block at point `t` is rows `10000·(row block) …` of the aggregate, all 64 columns. -/
theorem blk0_apply (c : Dev nD) (t : Fin cfg1.N) (x : S10000x64.Idx) (k : S50000x64.Idx)
    (hk0 : (k 0).val = win1_5.index t (0 : Fin 2) * 10000 + (x 0).val) (hk1 : (k 1).val = (x 1).val) :
    (iblk1 V c 0 t : Vec Ideal S10000x64 .f32) x = (V c main_v43 : S50000x64.Idx → Elt Ideal .f32) k := by
  obtain ⟨e00, e01, -⟩ := idx_facts t
  show V c main_v43 (((cfg1.win 0).blk t).view.emb x) = V c main_v43 k
  congr 1
  funext a
  apply Fin.ext
  match a with
  | ⟨0, _⟩ => show win1_0.index t (0 : Fin 2) * 10000 + 1 * (x 0).val = (k 0).val; omega
  | ⟨1, _⟩ => show win1_0.index t (1 : Fin 2) * 64 + 1 * (x 1).val = (k 1).val; omega

/-- The transformed features' block likewise. -/
theorem blk1_apply (c : Dev nD) (t : Fin cfg1.N) (x : S10000x64.Idx) (k : S50000x64.Idx)
    (hk0 : (k 0).val = win1_5.index t (0 : Fin 2) * 10000 + (x 0).val) (hk1 : (k 1).val = (x 1).val) :
    (iblk1 V c 1 t : Vec Ideal S10000x64 .bf16) x = (V c main_v29 : S50000x64.Idx → Elt Ideal .bf16) k := by
  obtain ⟨-, -, e10, e11, -⟩ := idx_facts t
  show V c main_v29 (((cfg1.win 1).blk t).view.emb x) = V c main_v29 k
  congr 1
  funext a
  apply Fin.ext
  match a with
  | ⟨0, _⟩ => show win1_1.index t (0 : Fin 2) * 10000 + 1 * (x 0).val = (k 0).val; omega
  | ⟨1, _⟩ => show win1_1.index t (1 : Fin 2) * 64 + 1 * (x 1).val = (k 1).val; omega

/-- The inverse degrees' block: the same rows of the one column. -/
theorem blk2_apply (c : Dev nD) (t : Fin cfg1.N) (x : S10000x1.Idx) (k : S50000x1.Idx)
    (hk0 : (k 0).val = win1_5.index t (0 : Fin 2) * 10000 + (x 0).val) (hk1 : (k 1).val = (x 1).val) :
    (iblk1 V c 2 t : Vec Ideal S10000x1 .f32) x = (V c main_v44 : S50000x1.Idx → Elt Ideal .f32) k := by
  obtain ⟨-, -, -, -, e20, e21, -⟩ := idx_facts t
  show V c main_v44 (((cfg1.win 2).blk t).view.emb x) = V c main_v44 k
  congr 1
  funext a
  apply Fin.ext
  match a with
  | ⟨0, _⟩ => show win1_2.index t (0 : Fin 2) * 10000 + 1 * (x 0).val = (k 0).val; omega
  | ⟨1, _⟩ => show win1_2.index t (1 : Fin 2) * 1 + 1 * (x 1).val = (k 1).val; omega

/-- The bias row's block is the whole row at every point. -/
theorem blk3_apply (c : Dev nD) (t : Fin cfg1.N) (x : S1x64.Idx) (k : S1x64.Idx)
    (hk0 : (k 0).val = (x 0).val) (hk1 : (k 1).val = (x 1).val) :
    (iblk1 V c 3 t : Vec Ideal S1x64 .f32) x = (V c main_v45 : S1x64.Idx → Elt Ideal .f32) k := by
  obtain ⟨-, -, -, -, -, -, e30, e31, -⟩ := idx_facts t
  show V c main_v45 (((cfg1.win 3).blk t).view.emb x) = V c main_v45 k
  congr 1
  funext a
  apply Fin.ext
  match a with
  | ⟨0, _⟩ => show win1_3.index t (0 : Fin 2) * 1 + 1 * (x 0).val = (k 0).val; omega
  | ⟨1, _⟩ => show win1_3.index t (1 : Fin 2) * 64 + 1 * (x 1).val = (k 1).val; omega

/-- The weights' block is the whole matrix at every point. -/
theorem blk4_apply (c : Dev nD) (t : Fin cfg1.N) (x : S64x64.Idx) (k : S64x64.Idx)
    (hk0 : (k 0).val = (x 0).val) (hk1 : (k 1).val = (x 1).val) :
    (iblk1 V c 4 t : Vec Ideal S64x64 .bf16) x = (V c main_v46 : S64x64.Idx → Elt Ideal .bf16) k := by
  obtain ⟨-, -, -, -, -, -, -, -, e40, e41, -⟩ := idx_facts t
  show V c main_v46 (((cfg1.win 4).blk t).view.emb x) = V c main_v46 k
  congr 1
  funext a
  apply Fin.ext
  match a with
  | ⟨0, _⟩ => show win1_4.index t (0 : Fin 2) * 64 + 1 * (x 0).val = (k 0).val; omega
  | ⟨1, _⟩ => show win1_4.index t (1 : Fin 2) * 64 + 1 * (x 1).val = (k 1).val; omega

/-- AT ONE ELEMENT: the payload of the five blocks at point `t`, at row `p` and column `q` of the block, is `G` at the
    array index `i` in row `10000·(row block) + p` and column `q`. -/
theorem point_at (c : Dev nD) (t : Fin cfg1.N) (p : Fin 10000) (q : Fin 64) (i : S50000x64.Idx)
    (hi0 : (i 0).val = win1_5.index t (0 : Fin 2) * 10000 + p.val) (hi1 : (i 1).val = q.val) :
    k1_pay1 (F := Ideal) (iblk1 V c 1 t) (iblk1 V c 0 t) (iblk1 V c 2 t) (iblk1 V c 3 t) (iblk1 V c 4 t) (ix2 p q) = G V c i := by
  rw [pay_at]
  refine Eq.trans ?_ (layer2_apply (V c main_v43) (V c main_v29) (V c main_v44) (V c main_v45) (V c main_v46) i).symm
  refine Finset.sum_congr rfl fun k _ => ?_
  rw [blk0_apply V c t (ix2 p k) (ix2 (i 0 : Fin 50000) k) hi0 rfl,
    blk1_apply V c t (ix2 p k) (ix2 (i 0 : Fin 50000) k) hi0 rfl,
    blk2_apply V c t (ix2 p (0 : Fin 1)) (ix2 (i 0 : Fin 50000) (0 : Fin 1)) hi0 rfl,
    blk3_apply V c t (ix2 (0 : Fin 1) k) (ix2 (0 : Fin 1) k) rfl rfl,
    blk4_apply V c t (ix2 k q) (ix2 k (i 1 : Fin 64)) rfl hi1]

/-- WHAT POINT `t` WRITES BACK is block `t` of `G` of the arrays as the region finds them. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S10000x64) hz, View.ld_unit_zero (S := S10000x1) hz,
    View.ld_unit_zero (S := S1x64) hz, View.ld_unit_zero (S := S64x64) hz]
  obtain ⟨-, -, -, -, -, -, -, -, -, -, -, e51⟩ := idx_facts t
  funext j
  have hj : j = ix2 (n0 := 10000) (n1 := 64) (j 0) (j 1) := eq_ix2 (n0 := 10000) (n1 := 64) j
  show k1_pay1 (F := Ideal) (iblk1 V c 1 t) (iblk1 V c 0 t) (iblk1 V c 2 t) (iblk1 V c 3 t) (iblk1 V c 4 t) j
    = G V c (((cfg1.win 5).blk t).view.emb j)
  refine (congrArg (k1_pay1 (F := Ideal) (iblk1 V c 1 t) (iblk1 V c 0 t) (iblk1 V c 2 t) (iblk1 V c 3 t) (iblk1 V c 4 t)) hj).trans ?_
  refine point_at V c t (j 0) (j 1) _ ?_ ?_
  · show win1_5.index t (0 : Fin 2) * 10000 + 1 * (j 0).val = win1_5.index t (0 : Fin 2) * 10000 + (j 0).val
    omega
  · show win1_5.index t (1 : Fin 2) * 64 + 1 * (j 1).val = (j 1).val
    omega

/-- An index of the array is in point `t`'s block iff each coordinate is in the block's range on its axis. -/
theorem mem_blk (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v47).slice (win1_5.rect t)).set ↔ _
  rw [View.set_slice_whole, Rect.mem_set_unit]
  exact Iff.rfl

/-- THE COVER: row `r` of the array is in the block of the point whose row block is `r / 10000`. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto ⟨(i 0).val / 10000 - 0, by omega⟩ ⟨(i 1).val / 64 - 0, by omega⟩
  have q0 : win1_5.index t (0 : Fin 2) = (i 0).val / 10000 - 0 + 0 := congrFun ht 0
  have q1 : win1_5.index t (1 : Fin 2) = (i 1).val / 64 - 0 + 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE ARRAY after the region: the second layer's feature transform of the first layer's activation, of the five arrays as
    the region finds them. -/
theorem final (c : Dev nD) :
    (Gen.dat1 (F := Ideal) V c).arrAt 5 cfg1.N = Cert.Spec.layer2 (V c main_v43) (V c main_v29) (V c main_v44) (V c main_v45) (V c main_v46) :=
  (dat1 (F := Ideal) V c).arrAt_eq_of_cover 5 (G V c) (fun t _ => flushed_eq V c t) (cover)

end Cert.KernelIdeal.Region1

end
-- ==== Proof.Region2.lean ====
/-
  Region 2 of the idealized kernel: the second layer's activation.  The region walks the 50000 nodes in
  five blocks of 10000 rows; at each block it reads the block of the neighbours' aggregate, of the node's
  own transformed features h and of the inverse-degree column, and the whole bias row, and writes
  max (agg + h * inv + bias) 0 back to the same rows of the output, the column spread along each row and
  the bias row spread down the rows.  Over the extended reals the widening of h is the identity, so each
  written block is a block of the one whole-array function Cert.Spec.combine agg h inv b, and the five
  blocks tile the output: the output array ends holding combine agg h inv b.
-/
import proofs.«130069_j73718818669021_2_alg».proof.Proof.Gen.KernelIdeal.Frame
import proofs.«130069_j73718818669021_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin : (![0, 0] : Fin 2 → Nat) = fun _ => 0 := funext fun a => by fin_cases a <;> rfl

/-! ## The activation at an entry -/

/-- A column spread along the rows: entry (p, q) is the column's entry (p, 0). -/
theorem column_apply (x : Vec Ideal S10000x1 .f32) (p : Fin 10000) (q : Fin 64) :
    broadcastTo S10000x64 x broadcasts_S10000x1_S10000x64 (ix2 p q) = x (ix2 p (0 : Fin 1)) := by
  refine broadcastTo_apply x broadcasts_S10000x1_S10000x64 (ix2 p q) (ix2 p (0 : Fin 1)) fun a => ?_
  match a with
  | ⟨0, _⟩ => exact (if_neg (by decide : ¬ (10000 : Nat) = 1)).symm
  | ⟨1, _⟩ => exact (if_pos (rfl : (1 : Nat) = 1)).symm

/-- A row spread down the rows: entry (p, q) is the row's entry (0, q). -/
theorem row_apply (x : Vec Ideal S1x64 .f32) (p : Fin 10000) (q : Fin 64) :
    broadcastTo S10000x64 x broadcasts_S1x64_S10000x64 (ix2 p q) = x (ix2 (0 : Fin 1) q) := by
  refine broadcastTo_apply x broadcasts_S1x64_S10000x64 (ix2 p q) (ix2 (0 : Fin 1) q) fun a => ?_
  match a with
  | ⟨0, _⟩ => exact (if_pos (rfl : (1 : Nat) = 1)).symm
  | ⟨1, _⟩ => exact (if_neg (by decide : ¬ (64 : Nat) = 1)).symm

/-- Entry (p, q) of the block's payload: the aggregate plus the node's own features times its inverse
    degree plus the bias, clamped below at zero; the widening of h changes nothing. -/
theorem activation_apply (h : Vec Ideal S10000x64 .bf16) (agg : Vec Ideal S10000x64 .f32) (inv : Vec Ideal S10000x1 .f32)
    (b : Vec Ideal S1x64 .f32) (p : Fin 10000) (q : Fin 64) :
    k2_pay1 h agg inv b (ix2 p q)
      = max (agg (ix2 p q) + h (ix2 p q) * inv (ix2 p (0 : Fin 1)) + b (ix2 (0 : Fin 1) q)) Cert.Spec.zero := by
  unfold k2_pay1
  simp only [shapeCast_self]
  rw [maximumf_apply, addf_apply, addf_apply, mulf_apply, extf_apply, broadcast_apply, column_apply, row_apply]
  rfl

/-! ## The index maps -/

/-- The printed index maps, decided over the five points: the blocks of the aggregate, of h and of the
    inverse-degree column move with the output's rows, the bias window and every column block stay at 0,
    and the output's row block is the point's number. -/
theorem index_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = win2_4.index t (0 : Fin 2)
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

/-! ## One block -/

/-- Entry (p, q) of a block's activation is entry (r, q) of the whole activation, when row p of each block
    is row r of its whole array and the bias is the whole bias row. -/
theorem block_apply (h : Vec Ideal S10000x64 .bf16) (agg : Vec Ideal S10000x64 .f32) (inv : Vec Ideal S10000x1 .f32)
    (b : Vec Ideal S1x64 .f32) (A H : Cert.Spec.Arr 50000 64) (I : Cert.Spec.Arr 50000 1) (B : Cert.Spec.Arr 1 64)
    (p : Fin 10000) (q : Fin 64) (r : Fin 50000)
    (ha : agg (ix2 p q) = A (ix2 r q)) (hh : h (ix2 p q) = H (ix2 r q))
    (hi : inv (ix2 p (0 : Fin 1)) = I (ix2 r (0 : Fin 1))) (hb : b (ix2 (0 : Fin 1) q) = B (ix2 (0 : Fin 1) q)) :
    k2_pay1 h agg inv b (ix2 p q) = Cert.Spec.combine A H I B (ix2 r q) := by
  rw [activation_apply, ha, hh, hi, hb]
  rfl

/-- What point t writes back is block t of the whole activation of the arrays as the region finds them. -/
theorem flushed_eq (c : Dev nD) (t : Fin cfg2.N) :
    (dat2 V c).flushed 4 t = ((cfg2.win 4).blk t).view.read (Elt Ideal)
      (Cert.Spec.combine (V c main_v61) (V c main_v47) (V c main_v62) (V c main_v63)) := by
  show (cfg2.win 4).cut (grid2.coords t) ((dat2 V c).after 4 t) = _
  rw [after2_4]
  unfold out2_4
  rw [View.canon_unit_zero origin]
  simp only [View.ld_unit_zero (S := S10000x64) origin, View.ld_unit_zero (S := S10000x1) origin, View.ld_unit_zero (S := S1x64) origin]
  obtain ⟨e0, e1, e2, e3, e4, e5, e6, e7, e8, e9⟩ := index_facts t
  have ht : t.val < 5 := lt_of_lt_of_eq t.isLt (N_2 : cfg2.N = 5)
  funext j
  obtain ⟨p, q, rfl⟩ : ∃ (p : Fin 10000) (q : Fin 64), j = ix2 p q := ⟨j 0, j 1, eq_ix2 j⟩
  have hp : p.val < 10000 := p.isLt
  have hemb : ((cfg2.win 4).blk t).view.emb (ix2 p q) = ix2 (⟨t.val * 10000 + p.val, by omega⟩ : Fin 50000) q := by
    funext a; apply Fin.ext
    match a with
    | ⟨0, _⟩ => show win2_4.index t (0 : Fin 2) * 10000 + 1 * p.val = t.val * 10000 + p.val; omega
    | ⟨1, _⟩ => show win2_4.index t (1 : Fin 2) * 64 + 1 * q.val = q.val; omega
  show k2_pay1 (iblk2 V c 1 t) (iblk2 V c 0 t) (iblk2 V c 2 t) (iblk2 V c 3 t) (ix2 p q)
    = Cert.Spec.combine (V c main_v61) (V c main_v47) (V c main_v62) (V c main_v63) (((cfg2.win 4).blk t).view.emb (ix2 p q))
  rw [hemb]
  have h0 : ((cfg2.win 0).blk t).view.emb (ix2 p q) = ix2 (⟨t.val * 10000 + p.val, by omega⟩ : Fin 50000) q := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * q.val = q.val; omega
  have h1 : ((cfg2.win 1).blk t).view.emb (ix2 p q) = ix2 (⟨t.val * 10000 + p.val, by omega⟩ : Fin 50000) q := by
    funext a; apply Fin.ext
    match a with
    | ⟨0, _⟩ => show win2_1.index t (0 : Fin 2) * 10000 + 1 * p.val = t.val * 10000 + p.val; omega
    | ⟨1, _⟩ => show win2_1.index t (1 : Fin 2) * 64 + 1 * q.val = q.val; omega
  have h2 : ((cfg2.win 2).blk t).view.emb (ix2 p (0 : Fin 1)) = ix2 (⟨t.val * 10000 + p.val, by omega⟩ : Fin 50000) (0 : Fin 1) := by
    funext a; apply Fin.ext
    match a with
    | ⟨0, _⟩ => show win2_2.index t (0 : Fin 2) * 10000 + 1 * p.val = t.val * 10000 + p.val; omega
    | ⟨1, _⟩ => show win2_2.index t (1 : Fin 2) * 1 + 1 * 0 = 0; omega
  have h3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 64 + 1 * q.val = q.val; omega
  refine block_apply _ _ _ _ _ _ _ _ p q _ ?_ ?_ ?_ ?_
  · show V c main_v61 (((cfg2.win 0).blk t).view.emb (ix2 p q)) = V c main_v61 (ix2 (⟨t.val * 10000 + p.val, by omega⟩ : Fin 50000) q)
    rw [h0]
  · show V c main_v47 (((cfg2.win 1).blk t).view.emb (ix2 p q)) = V c main_v47 (ix2 (⟨t.val * 10000 + p.val, by omega⟩ : Fin 50000) q)
    rw [h1]
  · show V c main_v62 (((cfg2.win 2).blk t).view.emb (ix2 p (0 : Fin 1))) = V c main_v62 (ix2 (⟨t.val * 10000 + p.val, by omega⟩ : Fin 50000) (0 : Fin 1))
    rw [h2]
  · show V c main_v63 (((cfg2.win 3).blk t).view.emb (ix2 (0 : Fin 1) q)) = V c main_v63 (ix2 (0 : Fin 1) q)
    rw [h3]

/-! ## The blocks tile the output -/

/-- An index of the output is in point t's block iff each coordinate is in the block's range on its axis. -/
theorem mem_block (t : Fin cfg2.N) (i : S50000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v64).slice (win2_4.rect t)).set ↔ _
  rw [View.set_slice_whole, Rect.mem_set_unit]
  exact Iff.rfl

/-- Every index of the output is in the block of the point its row falls in (row / 10000). -/
theorem covered (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 5 := N_2
  let t : Fin cfg2.N := ⟨(i 0).val / 10000, by rw [hN]; omega⟩
  obtain ⟨e0, e1, e2, e3, e4, e5, e6, e7, e8, e9⟩ := index_facts t
  have e8' : win2_4.index t (0 : Fin 2) = (i 0).val / 10000 := e8
  refine ⟨t, flush2_4 t, ?_⟩
  rw [mem_block]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-! ## The output array -/

/-- After the region the output array holds the whole activation of the aggregate, the node features, the
    inverse-degree column and the bias row as the region finds them. -/
theorem final (c : Dev nD) :
    (Gen.dat2 (F := Ideal) V c).arrAt 4 cfg2.N
      = Cert.Spec.combine (V c main_v61) (V c main_v47) (V c main_v62) (V c main_v63) :=
  (dat2 V c).arrAt_eq_of_cover 4 (Cert.Spec.combine (V c main_v61) (V c main_v47) (V c main_v62) (V c main_v63))
    (fun t _ => flushed_eq V c t) covered

end Cert.KernelIdeal.Region2

end
-- ==== Proof.lean ====
/-
  The certificate of a two-layer graph convolution with mean pooling and a linear head, computed by a
  kernel program of three tiled dense regions among host operations, against a plain whole-array reference.

  Both programs compute, from the edge list, each node's degree, the edge weights and the inverse degrees;
  transform the node features by the first weight matrix; aggregate the transformed rows over the edges;
  add the inverse-degree-weighted self term and the bias and clamp at zero; transform by the second weight
  matrix; aggregate, add and clamp again; pool the nodes of each graph by their mean; and apply the linear
  head.  The kernel program computes the two feature transforms and the two activations in row blocks of
  10000 nodes, rounding the operands of its matrix products to a narrower float format, where the reference
  applies one whole-array operation.  Over the extended reals a change of float format is the identity and
  a matrix product's entry is one sum whatever the tiling, so the two programs compute the same function:
  the gathers, scatter-sums, pooling and head are the same whole-array operations on both sides, and the
  three regions are the specification's `layer1`, `layer2` and `combine`, which are the reference's
  corresponding stages read index by index.  Every sum on one side is a sum over the same index set of the
  same terms on the other, so no law that fails at infinite values is used and the equality does not need
  the inputs to be finite.

  The three frames are the generated frame certificates (the reference's is its generated run with the
  result dropped); the idealization rewrote nothing, so the kernel program's idealization claim is trivial.
-/
import proofs.«130069_j73718818669021_2_alg».proof.Defs
import proofs.«130069_j73718818669021_2_alg».proof.Proof.Gen.Kernel
import proofs.«130069_j73718818669021_2_alg».proof.Proof.Gen.Kernel.Skeleton
import proofs.«130069_j73718818669021_2_alg».proof.Proof.Gen.Kernel.Launch
import proofs.«130069_j73718818669021_2_alg».proof.Proof.Gen.Kernel.Points
import proofs.«130069_j73718818669021_2_alg».proof.Proof.Gen.Kernel.Frame
import proofs.«130069_j73718818669021_2_alg».proof.Proof.Gen.KernelIdeal
import proofs.«130069_j73718818669021_2_alg».proof.Proof.Gen.KernelIdeal.Skeleton
import proofs.«130069_j73718818669021_2_alg».proof.Proof.Gen.KernelIdeal.Launch
import proofs.«130069_j73718818669021_2_alg».proof.Proof.Gen.KernelIdeal.Points
import proofs.«130069_j73718818669021_2_alg».proof.Proof.Gen.KernelIdeal.Frame
import proofs.«130069_j73718818669021_2_alg».proof.Proof.Gen.ReferenceIdeal
import proofs.«130069_j73718818669021_2_alg».proof.Proof.Gen.Pre_finite_inputs
import proofs.«130069_j73718818669021_2_alg».proof.Proof.Gen.ReferenceIdeal.Run
import proofs.«130069_j73718818669021_2_alg».proof.Proof.Gen.ReferenceIdeal.Read
import proofs.«130069_j73718818669021_2_alg».proof.Proof.KRun
import proofs.«130069_j73718818669021_2_alg».proof.Proof.KFold
import proofs.«130069_j73718818669021_2_alg».proof.Proof.Region0
import proofs.«130069_j73718818669021_2_alg».proof.Proof.Region1
import proofs.«130069_j73718818669021_2_alg».proof.Proof.Region2
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the reference's composed value of the argument arrays:
    the kernel program's last boundary contents are that value (the fold walked boundary by boundary, the three
    regions the specification's functions), and the reference's run states it of its own arguments, which
    agree with the kernel program's. -/
theorem algebraic : Cert.algebraic_KernelIdeal_ReferenceIdeal := by
  intro m ρ m' ρ' _ hagree
  refine ⟨fun c => Cert.ReferenceIdeal.Read.val_main_v88 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun r h c =>
      ⟨(h c).1.trans (Cert.KernelIdeal.KFold.w7_v81 m ρ c Cert.KernelIdeal.Region0.final Cert.KernelIdeal.Region1.final Cert.KernelIdeal.Region2.final), (h c).2⟩)
      (Cert.KernelIdeal.KRun.run_main m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v88_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
